-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S96x16x512 : Shape := ⟨3, ![96, 16, 512]⟩
abbrev S512x1024 : Shape := ⟨2, ![512, 1024]⟩
abbrev S512 : Shape := ⟨1, ![512]⟩
abbrev S_ : Shape := ⟨0, ![]⟩

class Facts : Prop where
  bcast_S_S96x16x512 : S_.BroadcastsInDim S96x16x512 (![] : Fin 0 → Fin S96x16x512.rank)
  reducesTo_S96x16x512_S_d0_1_2 : S96x16x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S96x16x512 .f32) (main_arg1 : FVec F S512x1024 .f32) (main_arg2 : FVec F S512 .f32) : IVec S_ 1 :=
  let main_v0 : FVec F S96x16x512 .f32 := Host.absf main_arg0
  let main_cst : FVec F S_ .f32 := constant S_ .f32 0x7F800000#32
  let main_v1 : FVec F S96x16x512 .f32 := broadcastInDim S96x16x512 ![] bcast_S_S96x16x512 main_cst
  let main_v2 : IVec S96x16x512 1 := cmpf .olt main_v0 main_v1
  let main_c : IVec S_ 1 := constantI S_ 1 1#1
  let main_v3 : IVec S_ 1 := (fun x v => Host.reduce IntOp.andi x v reducesTo_S96x16x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S96x16x512 : Shape := ⟨3, ![96, 16, 512]⟩
abbrev S512x1024 : Shape := ⟨2, ![512, 1024]⟩
abbrev S512 : Shape := ⟨1, ![512]⟩
abbrev S1536x512 : Shape := ⟨2, ![1536, 512]⟩
abbrev S512x512 : Shape := ⟨2, ![512, 512]⟩
abbrev S1x512 : Shape := ⟨2, ![1, 512]⟩
abbrev S96x96x16x512 : Shape := ⟨4, ![96, 96, 16, 512]⟩
abbrev S16x16x16x512 : Shape := ⟨4, ![16, 16, 16, 512]⟩
abbrev S16x16x512 : Shape := ⟨3, ![16, 16, 512]⟩
abbrev S16x1x16x512 : Shape := ⟨4, ![16, 1, 16, 512]⟩
abbrev S1x16x16x512 : Shape := ⟨4, ![1, 16, 16, 512]⟩
abbrev S1x1x1x512 : Shape := ⟨4, ![1, 1, 1, 512]⟩
abbrev S9216x16x512 : Shape := ⟨3, ![9216, 16, 512]⟩

abbrev nBuf : Space → Nat
  | .hbm => 15
  | .vmem => 10
  | .smem => 0
  | _ => 0

abbrev bufTy : (tb : Table) → Fin (tcTables nBuf tb) → BufTy
  | .hbm, ⟨0, _⟩ => ⟨S96x16x512, .f32⟩
  | .hbm, ⟨1, _⟩ => ⟨S512x1024, .f32⟩
  | .hbm, ⟨2, _⟩ => ⟨S512, .f32⟩
  | .hbm, ⟨3, _⟩ => ⟨S1536x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S1536x512, .f32⟩
  | .hbm, ⟨9, _⟩ => ⟨S1536x512, .f32⟩
  | .hbm, ⟨10, _⟩ => ⟨S96x16x512, .f32⟩
  | .hbm, ⟨11, _⟩ => ⟨S96x16x512, .f32⟩
  | .hbm, ⟨12, _⟩ => ⟨S1x512, .f32⟩
  | .hbm, ⟨13, _⟩ => ⟨S96x96x16x512, .f32⟩
  | .hbm, ⟨14, _⟩ => ⟨S9216x16x512, .f32⟩
  | .local _ .vmem, ⟨0, _⟩ => ⟨S1536x512, .f32⟩
  | .local _ .vmem, ⟨1, _⟩ => ⟨S512x512, .f32⟩
  | .local _ .vmem, ⟨2, _⟩ => ⟨S512x512, .f32⟩
  | .local _ .vmem, ⟨3, _⟩ => ⟨S1536x512, .f32⟩
  | .local _ .vmem, ⟨4, _⟩ => ⟨S1536x512, .f32⟩
  | .local _ .vmem, ⟨5, _⟩ => ⟨S96x16x512, .f32⟩
  | .local _ .vmem, ⟨6, _⟩ => ⟨S96x16x512, .f32⟩
  | .local _ .vmem, ⟨7, _⟩ => ⟨S1x512, .f32⟩
  | .local _ .vmem, ⟨8, _⟩ => ⟨S16x16x16x512, .f32⟩
  | .local _ .vmem, ⟨9, _⟩ => ⟨S16x16x16x512, .f32⟩
  | _, _ => ⟨S96x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![6, 6], ![false, false]⟩

def k1_off1 (i : grid1.Coords) : Fin 3 → Nat :=
  let arg0 : BitVec 32 := BitVec.ofNat 32 (i 0).val
  let c16_i32 : BitVec 32 := 16#32
  let v0 : BitVec 32 := Scalar.muli arg0 c16_i32
  let v1 : Index := Scalar.indexCast v0
  let c0 : Index := 0#32
  let c0_0 : Index := 0#32
  ![v1.toNat, 0, 0]
def k1_off2 (i : grid1.Coords) : Fin 3 → Nat :=
  let arg1 : BitVec 32 := BitVec.ofNat 32 (i 1).val
  let c16_i32_1 : BitVec 32 := 16#32
  let v4 : BitVec 32 := Scalar.muli arg1 c16_i32_1
  let v5 : Index := Scalar.indexCast v4
  let c0_2 : Index := 0#32
  let c0_3 : Index := 0#32
  ![v5.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .vmem S96x16x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S96x16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S16x16x16x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S96x16x512_S1536x512 : S96x16x512.ShapeCasts S1536x512
  slices_S512x1024_S512x512_0_0 : S512x1024.Slices ![0, 0] S512x512
  slices_S512x1024_S512x512_0_512 : S512x1024.Slices ![0, 512] S512x512
  transposes_S512x512_S512x512_1_0 : S512x512.Transposes [1, 0] S512x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1536x512_S96x16x512 : S1536x512.ShapeCasts S96x16x512
  shapeCasts_S512_S1x512 : S512.ShapeCasts S1x512
  h_S16x16x512 : 0 < S16x16x512.numel
  shapeCasts_S16x16x512_S16x16x512 : S16x16x512.ShapeCasts S16x16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S16x16x512_S16x1x16x512 : S16x16x512.ShapeCasts S16x1x16x512
  shapeCasts_S16x1x16x512_S16x1x16x512 : S16x1x16x512.ShapeCasts S16x1x16x512
  broadcasts_S16x1x16x512_S16x16x16x512 : S16x1x16x512.Broadcasts S16x16x16x512
  shapeCasts_S16x16x512_S1x16x16x512 : S16x16x512.ShapeCasts S1x16x16x512
  shapeCasts_S1x16x16x512_S1x16x16x512 : S1x16x16x512.ShapeCasts S1x16x16x512
  broadcasts_S1x16x16x512_S16x16x16x512 : S1x16x16x512.Broadcasts S16x16x16x512
  shapeCasts_S1x512_S1x1x1x512 : S1x512.ShapeCasts S1x1x1x512
  broadcasts_S1x1x1x512_S16x16x16x512 : S1x1x1x512.Broadcasts S16x16x16x512
  inb_S16x16x16x512_S16x16x16x512_0_0_0_0 : ∀ a, (![0, 0, 0, 0] : Fin 4 → Nat) a + S16x16x16x512.size a ≤ S16x16x16x512.size a
  h_S16x16x16x512 : 0 < S16x16x16x512.numel
  shapeCasts_S96x96x16x512_S9216x16x512 : S96x96x16x512.ShapeCasts S9216x16x512
  dot_S1536x512_S512x512_S1536x512_1_0_0_1_n_n_wf : DotDims.WF S1536x512 S512x512 S1536x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1536x512.size a ≤ S1536x512.size a
  hwx0_0 : ∀ i : grid0.Coords, EltTy.bits .f32 = 32 ∨ (Rect.block (s := S1536x512) S1536x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x512.size a ≤ S1536x512.size a
  hwx0_3 : ∀ i : grid0.Coords, EltTy.bits .f32 = 32 ∨ (Rect.block (s := S1536x512) S1536x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x512.size a ≤ S1536x512.size a
  hwx0_4 : ∀ i : grid0.Coords, EltTy.bits .f32 = 32 ∨ (Rect.block (s := S1536x512) S1536x512.size (cc0_transform_4 i) (hinb0_4 i)).WholeWords (EltTy.packing .f32)
  hrank1 : 0 < grid1.rank
  k1_off1_inb : ∀ i : grid1.Coords, ∀ a, (k1_off1 i) a + S16x16x512.size a ≤ S96x16x512.size a
  k1_off2_inb : ∀ i : grid1.Coords, ∀ a, (k1_off2 i) a + S16x16x512.size a ≤ S96x16x512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S96x16x512.size a ≤ S96x16x512.size a
  hwx1_0 : ∀ i : grid1.Coords, EltTy.bits .f32 = 32 ∨ (Rect.block (s := S96x16x512) S96x16x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x16x512.size a ≤ S96x16x512.size a
  hwx1_1 : ∀ i : grid1.Coords, EltTy.bits .f32 = 32 ∨ (Rect.block (s := S96x16x512) S96x16x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x16x16x512.size a ≤ S96x96x16x512.size a
  hwx1_3 : ∀ i : grid1.Coords, EltTy.bits .f32 = 32 ∨ (Rect.block (s := S96x96x16x512) S16x16x16x512.size (cc1_transform_3 i) (hinb1_3 i)).WholeWords (EltTy.packing .f32)

variable [Facts₀]

def dot_S1536x512_S512x512_S1536x512_1_0_0_1_n_n : DotDims S1536x512 S512x512 S1536x512 where
  lhsContracting := [1]
  rhsContracting := [0]
  lhsNonContracting := [0]
  rhsNonContracting := [1]
  lhsBatch := []
  rhsBatch := []
  wf := dot_S1536x512_S512x512_S1536x512_1_0_0_1_n_n_wf

abbrev win0_0 : Pipeline.Window sig grid0 :=
  Pipeline.Window.ofSpec (Memref.whole main_v0) S1536x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1536x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1536x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S96x16x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S96x16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S16x16x16x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S96x16x512 : Shape := ⟨3, ![96, 16, 512]⟩
abbrev S512x1024 : Shape := ⟨2, ![512, 1024]⟩
abbrev S512 : Shape := ⟨1, ![512]⟩
abbrev S96x1x16x512 : Shape := ⟨4, ![96, 1, 16, 512]⟩
abbrev S96x96x16x512 : Shape := ⟨4, ![96, 96, 16, 512]⟩
abbrev S1x96x16x512 : Shape := ⟨4, ![1, 96, 16, 512]⟩
abbrev S96x96x16x1024 : Shape := ⟨4, ![96, 96, 16, 1024]⟩
abbrev S_ : Shape := ⟨0, ![]⟩
abbrev S1x1x1x512 : Shape := ⟨4, ![1, 1, 1, 512]⟩
abbrev S9216x16x512 : Shape := ⟨3, ![9216, 16, 512]⟩

abbrev nBuf : Space → Nat
  | .hbm => 21
  | .vmem => 0
  | .smem => 0
  | _ => 0

abbrev bufTy : (tb : Table) → Fin (tcTables nBuf tb) → BufTy
  | .hbm, ⟨0, _⟩ => ⟨S96x16x512, .f32⟩
  | .hbm, ⟨1, _⟩ => ⟨S512x1024, .f32⟩
  | .hbm, ⟨2, _⟩ => ⟨S512, .f32⟩
  | .hbm, ⟨3, _⟩ => ⟨S96x1x16x512, .f32⟩
  | .hbm, ⟨4, _⟩ => ⟨S96x96x16x512, .f32⟩
  | .hbm, ⟨5, _⟩ => ⟨S1x96x16x512, .f32⟩
  | .hbm, ⟨6, _⟩ => ⟨S96x96x16x512, .f32⟩
  | .hbm, ⟨7, _⟩ => ⟨S96x96x16x1024, .f32⟩
  | .hbm, ⟨8, _⟩ => ⟨S_, .f32⟩
  | .hbm, ⟨9, _⟩ => ⟨S_, .f32⟩
  | .hbm, ⟨10, _⟩ => ⟨S96x96x16x1024, .f32⟩
  | .hbm, ⟨11, _⟩ => ⟨S96x96x16x1024, .i1⟩
  | .hbm, ⟨12, _⟩ => ⟨S_, .f32⟩
  | .hbm, ⟨13, _⟩ => ⟨S96x96x16x1024, .f32⟩
  | .hbm, ⟨14, _⟩ => ⟨S96x96x16x1024, .f32⟩
  | .hbm, ⟨15, _⟩ => ⟨S96x96x16x1024, .f32⟩
  | .hbm, ⟨16, _⟩ => ⟨S96x96x16x512, .f32⟩
  | .hbm, ⟨17, _⟩ => ⟨S1x1x1x512, .f32⟩
  | .hbm, ⟨18, _⟩ => ⟨S96x96x16x512, .f32⟩
  | .hbm, ⟨19, _⟩ => ⟨S96x96x16x512, .f32⟩
  | .hbm, ⟨20, _⟩ => ⟨S9216x16x512, .f32⟩
  | _, _ => ⟨S96x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S96x16x512_S96x1x16x512_0_2_3 : S96x16x512.BroadcastsInDim S96x1x16x512 (![0, 2, 3] : Fin 3 → Fin S96x1x16x512.rank)
  bcast_S96x1x16x512_S96x96x16x512_0_1_2_3 : S96x1x16x512.BroadcastsInDim S96x96x16x512 (![0, 1, 2, 3] : Fin 4 → Fin S96x96x16x512.rank)
  bcast_S96x16x512_S1x96x16x512_1_2_3 : S96x16x512.BroadcastsInDim S1x96x16x512 (![1, 2, 3] : Fin 3 → Fin S1x96x16x512.rank)
  bcast_S1x96x16x512_S96x96x16x512_0_1_2_3 : S1x96x16x512.BroadcastsInDim S96x96x16x512 (![0, 1, 2, 3] : Fin 4 → Fin S96x96x16x512.rank)
  concatenates_S96x96x16x512_S96x96x16x512_S96x96x16x1024_d3 : Shape.Concatenates [S96x96x16x512, S96x96x16x512] S96x96x16x1024 3
  bcast_S_S96x96x16x1024 : S_.BroadcastsInDim S96x96x16x1024 (![] : Fin 0 → Fin S96x96x16x1024.rank)
  bcast_S512_S1x1x1x512_3 : S512.BroadcastsInDim S1x1x1x512 (![3] : Fin 1 → Fin S1x1x1x512.rank)
  bcast_S1x1x1x512_S96x96x16x512_0_1_2_3 : S1x1x1x512.BroadcastsInDim S96x96x16x512 (![0, 1, 2, 3] : Fin 4 → Fin S96x96x16x512.rank)
  shapeCasts_S96x96x16x512_S9216x16x512 : S96x96x16x512.ShapeCasts S9216x16x512
  dot_S96x96x16x1024_S512x1024_S96x96x16x512_3_1_012_0_n_n_wf : DotDims.WF S96x96x16x1024 S512x1024 S96x96x16x512 [3] [1] [0, 1, 2] [0] [] []

variable [Facts₀]

def dot_S96x96x16x1024_S512x1024_S96x96x16x512_3_1_012_0_n_n : DotDims S96x96x16x1024 S512x1024 S96x96x16x512 where
  lhsContracting := [3]
  rhsContracting := [1]
  lhsNonContracting := [0, 1, 2]
  rhsNonContracting := [0]
  lhsBatch := []
  rhsBatch := []
  wf := dot_S96x96x16x1024_S512x1024_S96x96x16x512_3_1_012_0_n_n_wf

class Facts : Prop extends Facts₀ where

variable [Facts]
-- ==== Proof.Spec.lean ====
/-
  The function both programs compute, index by index on the extended reals, and the two small laws that join
  the two spellings of it.

  For an input `x : [96, 16, 512]`, a weight `W : [512, 1024]` and a bias `[512]`, the result at row
  `r = 96 p + q`, batch entry `b` and output feature `c` is

      ∑ k < 512, lrelu (x p b k) · W c k  +  ∑ k < 512, lrelu (x q b k) · W c (512 + k)  +  bias c,

  `lrelu` the leaky rectifier with slope the f32 word of 0.1: a linear layer applied to the rectified
  concatenation of the rows `p` and `q` of `x`, the contraction over the 1024 concatenated features split at 512
  into the part that meets row `p` and the part that meets row `q`.
-/
import Idealize.ShloMosaic.PureOps.Ideal
import Idealize.ShloMosaic.PureOps.Ideal.Laws
import Idealize.ShloMosaic.Lib.ValueIdx

noncomputable section

namespace Cert.PairSpec

open Idealize.ShloMosaic Idealize.ShloMosaic.ValueIdx

/-- The slope of the leaky rectifier: the extended real the f32 word of 0.1 denotes (never evaluated: both
    programs carry the same word). -/
def slope : EReal := Ideal.ofBits .f32 0x3DCCCCCD#32

/-- The leaky rectifier: the identity above zero, the multiple by the slope elsewhere. -/
def lrelu (v : EReal) : EReal := if 0 < v then v else v * slope

/-- The same function spelt with the weak comparison and the slope on the left: at `0` both branches are `0`,
    and the product of extended reals commutes. -/
theorem lrelu_weak (v : EReal) : (if 0 ≤ v then v else slope * v) = lrelu v := by
  unfold lrelu
  by_cases h : 0 < v
  · rw [if_pos h.le, if_pos h]
  · rw [if_neg h]
    by_cases h0 : 0 ≤ v
    · have hv : v = 0 := le_antisymm (not_lt.mp h) h0
      rw [if_pos h0, hv, zero_mul]
    · rw [if_neg h0, mul_comm]

/-- The part of the contraction that meets row `p` of `x`: the first 512 columns of `W`. -/
def headSum (x : (⟨3, ![96, 16, 512]⟩ : Shape).Idx → EReal) (W : (⟨2, ![512, 1024]⟩ : Shape).Idx → EReal)
    (p : Fin 96) (b : Fin 16) (c : Fin 512) : EReal :=
  ∑ k : Fin 512, lrelu (x (ix3 p b k)) * W (ix2 c (⟨k.val, by omega⟩ : Fin 1024))

/-- The part that meets row `q` of `x`: the last 512 columns of `W`. -/
def tailSum (x : (⟨3, ![96, 16, 512]⟩ : Shape).Idx → EReal) (W : (⟨2, ![512, 1024]⟩ : Shape).Idx → EReal)
    (q : Fin 96) (b : Fin 16) (c : Fin 512) : EReal :=
  ∑ k : Fin 512, lrelu (x (ix3 q b k)) * W (ix2 c (⟨512 + k.val, by omega⟩ : Fin 1024))

/-- The result at row `r = 96 p + q`, batch entry `b`, feature `c`. -/
def Gat (x : (⟨3, ![96, 16, 512]⟩ : Shape).Idx → EReal) (W : (⟨2, ![512, 1024]⟩ : Shape).Idx → EReal)
    (bias : (⟨1, ![512]⟩ : Shape).Idx → EReal) (r : Fin 9216) (b : Fin 16) (c : Fin 512) : EReal :=
  headSum x W ⟨r.val / 96, by omega⟩ b c + tailSum x W ⟨r.val % 96, by omega⟩ b c + bias (ix1 c)

/-- The whole result array. -/
def G (x : (⟨3, ![96, 16, 512]⟩ : Shape).Idx → EReal) (W : (⟨2, ![512, 1024]⟩ : Shape).Idx → EReal)
    (bias : (⟨1, ![512]⟩ : Shape).Idx → EReal) : (⟨3, ![9216, 16, 512]⟩ : Shape).Idx → EReal :=
  fun i => Gat x W bias (i 0) (i 1) (i 2)

theorem G_ix3 (x : (⟨3, ![96, 16, 512]⟩ : Shape).Idx → EReal) (W : (⟨2, ![512, 1024]⟩ : Shape).Idx → EReal)
    (bias : (⟨1, ![512]⟩ : Shape).Idx → EReal) (r : Fin 9216) (b : Fin 16) (c : Fin 512) :
    G x W bias (ix3 r b c) = Gat x W bias r b c := rfl

/-- The first partial product as a [1536, 512] array: at flat row `16 p + b` and feature `c` it is `headSum` at `p`, `b`, `c`. -/
def headFlatAt (x : (⟨3, ![96, 16, 512]⟩ : Shape).Idx → EReal) (W : (⟨2, ![512, 1024]⟩ : Shape).Idx → EReal)
    (r : Fin 1536) (c : Fin 512) : EReal :=
  headSum x W ⟨r.val / 16, by omega⟩ ⟨r.val % 16, by omega⟩ c

def headFlat (x : (⟨3, ![96, 16, 512]⟩ : Shape).Idx → EReal) (W : (⟨2, ![512, 1024]⟩ : Shape).Idx → EReal) :
    (⟨2, ![1536, 512]⟩ : Shape).Idx → EReal :=
  fun j => headFlatAt x W (j 0) (j 1)

/-- The second partial product as a [1536, 512] array, likewise. -/
def tailFlatAt (x : (⟨3, ![96, 16, 512]⟩ : Shape).Idx → EReal) (W : (⟨2, ![512, 1024]⟩ : Shape).Idx → EReal)
    (r : Fin 1536) (c : Fin 512) : EReal :=
  tailSum x W ⟨r.val / 16, by omega⟩ ⟨r.val % 16, by omega⟩ c

def tailFlat (x : (⟨3, ![96, 16, 512]⟩ : Shape).Idx → EReal) (W : (⟨2, ![512, 1024]⟩ : Shape).Idx → EReal) :
    (⟨2, ![1536, 512]⟩ : Shape).Idx → EReal :=
  fun j => tailFlatAt x W (j 0) (j 1)

/-- A sum over 1024 terms is the sum of its first 512 and of its last 512 (addition of extended reals is
    commutative and associative; no term need be finite). -/
theorem sum_split (f : Fin 1024 → EReal) :
    ∑ k : Fin 1024, f k
      = ∑ k : Fin 512, f (⟨k.val, by omega⟩ : Fin 1024) + ∑ k : Fin 512, f (⟨512 + k.val, by omega⟩ : Fin 1024) := by
  have h := Fin.sum_univ_add (M := EReal) (a := 512) (b := 512) f
  exact h

end Cert.PairSpec

end
-- ==== Proof.KRun.lean ====
/-
  The kernel program's run with its result named. Every weakly fair execution of the program from a memory
  `m` terminates without a fault, leaves the three argument arrays as they were, and leaves the result array at
  the contents the chain of host stretches and kernel regions folds out of `m`: the last boundary's contents
  `W5 m ρ c` read at the result buffer. This is the generated frame's launch over the same five segments, with the
  final state read at one more unscoped buffer.
-/
import proofs.«101371_j80934363726437_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments unchanged. -/
theorem run_named : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.KRun

end
-- ==== Proof.PairValue.lean ====
/-
  The second kernel region, read as values. At grid point (gi, gj) of the 6 × 6 grid the body loads rows
  16 gi … 16 gi + 15 of its first operand `A : [96, 16, 512]`, rows 16 gj … 16 gj + 15 of its second operand `B`, and
  the one row of its third operand `β : [1, 512]`, and stores into block (gi, gj) of the [96, 96, 16, 512] output the
  array whose entry (a, b, s, d) is `A (16 gi + a, s, d) + B (16 gj + b, s, d) + β (0, d)`. The blocks tile the output,
  so the output array ends holding, at (p, q, s, d), `A (p, s, d) + B (q, s, d) + β (0, d)`.
-/
import proofs.«101371_j80934363726437_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pair

open Cert.KernelIdeal Cert.KernelIdeal.Gen

section AnyValues

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl

/-- What the body leaves in the output's staging buffer: its one covering store's payload, of the two row blocks it
    loads at the point's offsets and of the bias row. -/
theorem out_A (c : Dev nD) (i : grid1.Coords) (a2 : Memref sig .tc .vmem S96x16x512 .f32) (h2 : a2.IsWhole)
    (a3 : Memref sig .tc .vmem S96x16x512 .f32) (h3 : a3.IsWhole) (a4 : Memref sig .tc .vmem S1x512 .f32) (h4 : a4.IsWhole)
    (a5 : Memref sig .tc .vmem S16x16x16x512 .f32) (h5 : a5.IsWhole)
    (x0 x1 : Vec F S96x16x512 .f32) (x2 : Vec F S1x512 .f32) :
    out1_A_3 c i a2 h2 a3 h3 a4 h4 a5 h5 x0 x1 x2
      = k1_pay1 (View.ld x0 (Rect.unit (s := S96x16x512) (k1_off1 i) S16x16x512.size (k1_off1_inb i)))
          (View.ld x1 (Rect.unit (s := S96x16x512) (k1_off2 i) S16x16x512.size (k1_off2_inb i))) x2 := by
  unfold out1_A_3
  rw [View.read_writes_eq_canon _ _ _ (cover1_A_3 c i a2 h2 a3 h3 a4 h4 a5 h5 x0 x1 x2)]
  unfold kernelRun1_A
  dsimp only
  rw [View.canon_unit_zero hz4]
  simp only [View.readAt_eq_ld, h2.read_unread, h3.read_unread, h4.read_unread, View.ld_unit_zero (S := S1x512) hz2]

end AnyValues

/-- The payload at an entry: the first block at (a, s, d), plus the second at (b, s, d), plus the bias row at d —
    the two blocks and the row broadcast along the axes they lack. -/
theorem pay_apply (v2 v6 : Vec Ideal S16x16x512 .f32) (v8 : Vec Ideal S1x512 .f32) (a b s : Fin 16) (d : Fin 512) :
    k1_pay1 v2 v6 v8 (ix4 a b s d) = v2 (ix3 a s d) + v6 (ix3 b s d) + v8 (ix2 (0 : Fin 1) d) := by
  unfold k1_pay1
  simp only [shapeCast_self]
  rw [addf_apply, addf_apply]
  congr 1
  · congr 1
    · refine (broadcastTo_apply _ _ (ix4 a b s d) (ix4 a (0 : Fin 1) s d) ?_).trans ?_
      · intro x; match x with
        | ⟨0, _⟩ => rfl
        | ⟨1, _⟩ => rfl
        | ⟨2, _⟩ => rfl
        | ⟨3, _⟩ => rfl
      · refine shapeCast_apply _ _ (ix4 a (0 : Fin 1) s d) (ix3 a s d) ?_
        rw [Shape.rowMajor_val_three, Shape.rowMajor_val_four]
        show (a.val * 16 + s.val) * 512 + d.val = ((a.val * 1 + 0) * 16 + s.val) * 512 + d.val
        omega
    · refine (broadcastTo_apply _ _ (ix4 a b s d) (ix4 (0 : Fin 1) b s d) ?_).trans ?_
      · intro x; match x with
        | ⟨0, _⟩ => rfl
        | ⟨1, _⟩ => rfl
        | ⟨2, _⟩ => rfl
        | ⟨3, _⟩ => rfl
      · refine shapeCast_apply _ _ (ix4 (0 : Fin 1) b s d) (ix3 b s d) ?_
        rw [Shape.rowMajor_val_three, Shape.rowMajor_val_four]
        show (b.val * 16 + s.val) * 512 + d.val = ((0 * 16 + b.val) * 16 + s.val) * 512 + d.val
        omega
  · refine (broadcastTo_apply _ _ (ix4 a b s d) (ix4 (0 : Fin 1) (0 : Fin 1) (0 : Fin 1) d) ?_).trans ?_
    · intro x; match x with
      | ⟨0, _⟩ => rfl
      | ⟨1, _⟩ => rfl
      | ⟨2, _⟩ => rfl
      | ⟨3, _⟩ => rfl
    · refine shapeCast_apply _ _ (ix4 (0 : Fin 1) (0 : Fin 1) (0 : Fin 1) d) (ix2 (0 : Fin 1) d) ?_
      rw [Shape.rowMajor_val_two, Shape.rowMajor_val_four]
      show 0 * 512 + d.val = ((0 * 1 + 0) * 1 + 0) * 512 + d.val
      omega

/-- The same at any index of the block. -/
theorem pay_at (v2 v6 : Vec Ideal S16x16x512 .f32) (v8 : Vec Ideal S1x512 .f32) (y : S16x16x16x512.Idx) :
    k1_pay1 v2 v6 v8 y = v2 (ix3 (y 0) (y 2) (y 3)) + v6 (ix3 (y 1) (y 2) (y 3)) + v8 (ix2 (0 : Fin 1) (y 3)) := by
  obtain ⟨a, b, s, d, rfl⟩ : ∃ (a b s : Fin 16) (d : Fin 512), y = ix4 a b s d := ⟨y 0, y 1, y 2, y 3, eq_ix4 y⟩
  exact pay_apply v2 v6 v8 a b s d

/-- The output array of the region as one function of its three operand arrays. -/
def pairArr (A B : S96x16x512.Idx → EReal) (β : S1x512.Idx → EReal) : S96x96x16x512.Idx → EReal :=
  fun i => A (ix3 (i 0) (i 2) (i 3)) + B (ix3 (i 1) (i 2) (i 3)) + β (ix2 (0 : Fin 1) (i 3))

/-- The printed index maps and load offsets, decided over the 36 grid points: the output's block index is the grid
    point, the operands' blocks are their whole arrays, the two loads start at sixteen times the point's coordinates. -/
theorem idx_facts : ∀ t : Fin cfg1.N,
    win1_3.index t (2 : Fin 4) = 0 ∧ win1_3.index t (3 : Fin 4) = 0
    ∧ win1_0.index t (0 : Fin 3) = 0 ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ k1_off1 (grid1.coords t) (0 : Fin 3) = 16 * win1_3.index t (0 : Fin 4) ∧ k1_off1 (grid1.coords t) (1 : Fin 3) = 0 ∧ k1_off1 (grid1.coords t) (2 : Fin 3) = 0
    ∧ k1_off2 (grid1.coords t) (0 : Fin 3) = 16 * win1_3.index t (1 : Fin 4) ∧ k1_off2 (grid1.coords t) (1 : Fin 3) = 0 ∧ k1_off2 (grid1.coords t) (2 : Fin 3) = 0
    ∧ win1_3.index t (0 : Fin 4) ≤ 5 ∧ win1_3.index t (1 : Fin 4) ≤ 5 :=
  (by decide +kernel : ∀ t : Fin grid1.N, _)

/-- Every block of the output is some grid point's. -/
theorem idx_onto : ∀ (q0 q1 : Fin 6), ∃ t : Fin cfg1.N, win1_3.index t = ![q0.val, q1.val, 0, 0] :=
  (by decide +kernel : ∀ (q0 q1 : Fin 6), ∃ t : Fin grid1.N, win1_3.index t = ![q0.val, q1.val, 0, 0])

/-- An entry of the first operand's row block at a point, read through the window (the whole array) and the load's
    rectangle: the array at the rectangle's offset plus the entry's coordinates. -/
theorem rd0 (V : (c : Dev nD) → (b : Ref sig .tc) → Buf (Elt Ideal) ((c : Thread nD τ).loc b)) (c : Dev nD) (t : Fin cfg1.N)
    (z : S16x16x512.Idx) (w : S96x16x512.Idx)
    (h0 : (w 0).val = win1_0.index t (0 : Fin 3) * 96 + 1 * (k1_off1 (grid1.coords t) (0 : Fin 3) + 1 * (z 0).val))
    (h1 : (w 1).val = win1_0.index t (1 : Fin 3) * 16 + 1 * (k1_off1 (grid1.coords t) (1 : Fin 3) + 1 * (z 1).val))
    (h2 : (w 2).val = win1_0.index t (2 : Fin 3) * 512 + 1 * (k1_off1 (grid1.coords t) (2 : Fin 3) + 1 * (z 2).val)) :
    View.ld (iblk1 (F := Ideal) V c 0 t) (Rect.unit (s := S96x16x512) (k1_off1 (grid1.coords t)) S16x16x512.size (k1_off1_inb (grid1.coords t))) z
      = V c main_v6 w := by
  show V c main_v6 (((cfg1.win 0).blk t).view.emb ((Rect.unit (s := S96x16x512) (k1_off1 (grid1.coords t)) S16x16x512.size (k1_off1_inb (grid1.coords t))).idx z)) = V c main_v6 w
  refine congrArg (V c main_v6) (funext fun a => Fin.ext ?_)
  match a with
  | ⟨0, _⟩ => exact h0.symm
  | ⟨1, _⟩ => exact h1.symm
  | ⟨2, _⟩ => exact h2.symm

theorem rd1 (V : (c : Dev nD) → (b : Ref sig .tc) → Buf (Elt Ideal) ((c : Thread nD τ).loc b)) (c : Dev nD) (t : Fin cfg1.N)
    (z : S16x16x512.Idx) (w : S96x16x512.Idx)
    (h0 : (w 0).val = win1_1.index t (0 : Fin 3) * 96 + 1 * (k1_off2 (grid1.coords t) (0 : Fin 3) + 1 * (z 0).val))
    (h1 : (w 1).val = win1_1.index t (1 : Fin 3) * 16 + 1 * (k1_off2 (grid1.coords t) (1 : Fin 3) + 1 * (z 1).val))
    (h2 : (w 2).val = win1_1.index t (2 : Fin 3) * 512 + 1 * (k1_off2 (grid1.coords t) (2 : Fin 3) + 1 * (z 2).val)) :
    View.ld (iblk1 (F := Ideal) V c 1 t) (Rect.unit (s := S96x16x512) (k1_off2 (grid1.coords t)) S16x16x512.size (k1_off2_inb (grid1.coords t))) z
      = V c main_v7 w := by
  show V c main_v7 (((cfg1.win 1).blk t).view.emb ((Rect.unit (s := S96x16x512) (k1_off2 (grid1.coords t)) S16x16x512.size (k1_off2_inb (grid1.coords t))).idx z)) = V c main_v7 w
  refine congrArg (V c main_v7) (funext fun a => Fin.ext ?_)
  match a with
  | ⟨0, _⟩ => exact h0.symm
  | ⟨1, _⟩ => exact h1.symm
  | ⟨2, _⟩ => exact h2.symm

theorem rd2 (V : (c : Dev nD) → (b : Ref sig .tc) → Buf (Elt Ideal) ((c : Thread nD τ).loc b)) (c : Dev nD) (t : Fin cfg1.N)
    (z : S1x512.Idx) (w : S1x512.Idx)
    (h0 : (w 0).val = win1_2.index t (0 : Fin 2) * 1 + 1 * (z 0).val)
    (h1 : (w 1).val = win1_2.index t (1 : Fin 2) * 512 + 1 * (z 1).val) :
    iblk1 (F := Ideal) V c 2 t z = V c main_v8 w := by
  show V c main_v8 (((cfg1.win 2).blk t).view.emb z) = V c main_v8 w
  refine congrArg (V c main_v8) (funext fun a => Fin.ext ?_)
  match a with
  | ⟨0, _⟩ => exact h0.symm
  | ⟨1, _⟩ => exact h1.symm

/-- What grid point `t` writes back is block `t` of `pairArr` of the three operand arrays as the region finds them:
    the loads' offsets are sixteen times the block's indices, so an entry of the block reads the operands where the
    array index under it says. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (pairArr (V c main_v6) (V c main_v7) (V c main_v8)) := by
  show (cfg1.win 3).cut (grid1.coords t) ((dat1 V c).after 3 t) = _
  rw [after1_3]
  unfold outsAt1
  rw [out_A]
  obtain ⟨e2, e3, a0, a1, a2, b0, b1, b2, c0, c1, o10, o11, o12, o20, o21, o22, l0, l1⟩ := idx_facts t
  funext y
  refine (pay_at _ _ _ y).trans ?_
  refine Eq.trans ?_ (show pairArr (V c main_v6) (V c main_v7) (V c main_v8) (((cfg1.win 3).blk t).view.emb y) = ((cfg1.win 3).blk t).view.read (Elt Ideal) (pairArr (V c main_v6) (V c main_v7) (V c main_v8)) y from rfl)
  unfold pairArr
  congr 1
  · congr 1
    · refine rd0 V c t _ _ ?_ ?_ ?_
      · show win1_3.index t (0 : Fin 4) * 16 + 1 * (y 0).val = win1_0.index t (0 : Fin 3) * 96 + 1 * (k1_off1 (grid1.coords t) (0 : Fin 3) + 1 * (y 0).val)
        omega
      · show win1_3.index t (2 : Fin 4) * 16 + 1 * (y 2).val = win1_0.index t (1 : Fin 3) * 16 + 1 * (k1_off1 (grid1.coords t) (1 : Fin 3) + 1 * (y 2).val)
        omega
      · show win1_3.index t (3 : Fin 4) * 512 + 1 * (y 3).val = win1_0.index t (2 : Fin 3) * 512 + 1 * (k1_off1 (grid1.coords t) (2 : Fin 3) + 1 * (y 3).val)
        omega
    · refine rd1 V c t _ _ ?_ ?_ ?_
      · show win1_3.index t (1 : Fin 4) * 16 + 1 * (y 1).val = win1_1.index t (0 : Fin 3) * 96 + 1 * (k1_off2 (grid1.coords t) (0 : Fin 3) + 1 * (y 1).val)
        omega
      · show win1_3.index t (2 : Fin 4) * 16 + 1 * (y 2).val = win1_1.index t (1 : Fin 3) * 16 + 1 * (k1_off2 (grid1.coords t) (1 : Fin 3) + 1 * (y 2).val)
        omega
      · show win1_3.index t (3 : Fin 4) * 512 + 1 * (y 3).val = win1_1.index t (2 : Fin 3) * 512 + 1 * (k1_off2 (grid1.coords t) (2 : Fin 3) + 1 * (y 3).val)
        omega
  · refine rd2 V c t _ _ ?_ ?_
    · show 0 = win1_2.index t (0 : Fin 2) * 1 + 1 * 0
      omega
    · show win1_3.index t (3 : Fin 4) * 512 + 1 * (y 3).val = win1_2.index t (1 : Fin 2) * 512 + 1 * (y 3).val
      omega

/-- An index of the output array is in point `t`'s block iff each coordinate is in the block's range on its axis. -/
theorem mem_blk (t : Fin cfg1.N) (i : S96x96x16x512.Idx) :
    i ∈ ((cfg1.win 3).blk t).view.set ↔ ∀ a : Fin 4, win1_3.index t a * S16x16x16x512.size a ≤ (i a).val ∧ (i a).val < win1_3.index t a * S16x16x16x512.size a + S16x16x16x512.size a := by
  show i ∈ ((View.whole main_v9).slice (win1_3.rect t)).set ↔ _
  rw [View.set_slice_whole, Rect.mem_set_unit]
  exact Iff.rfl

/-- The blocks tile the output: the point whose coordinates are the first two coordinates over sixteen covers the index. -/
theorem cover (i : S96x96x16x512.Idx) : ∃ t : Fin cfg1.N, (cfg1.win 3).flush t = true ∧ i ∈ ((cfg1.win 3).blk t).view.set := by
  have hi0 : (i 0).val < 96 := (i 0).isLt
  have hi1 : (i 1).val < 96 := (i 1).isLt
  have hi2 : (i 2).val < 16 := (i 2).isLt
  have hi3 : (i 3).val < 512 := (i 3).isLt
  obtain ⟨t, ht⟩ := idx_onto ⟨(i 0).val / 16, by omega⟩ ⟨(i 1).val / 16, by omega⟩
  have q0 : win1_3.index t (0 : Fin 4) = (i 0).val / 16 := congrFun ht 0
  have q1 : win1_3.index t (1 : Fin 4) = (i 1).val / 16 := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 16 ≤ (i 0).val ∧ (i 0).val < win1_3.index t (0 : Fin 4) * 16 + 16; omega
  | ⟨1, _⟩ => show win1_3.index t (1 : Fin 4) * 16 ≤ (i 1).val ∧ (i 1).val < win1_3.index t (1 : Fin 4) * 16 + 16; omega
  | ⟨2, _⟩ => show win1_3.index t (2 : Fin 4) * 16 ≤ (i 2).val ∧ (i 2).val < win1_3.index t (2 : Fin 4) * 16 + 16; omega
  | ⟨3, _⟩ => show win1_3.index t (3 : Fin 4) * 512 ≤ (i 3).val ∧ (i 3).val < win1_3.index t (3 : Fin 4) * 512 + 512; omega

/-- The output array after the region: `pairArr` of the three operand arrays as the region finds them. -/
theorem final (V : (c : Dev nD) → (b : Ref sig .tc) → Buf (Elt Ideal) ((c : Thread nD τ).loc b)) (c : Dev nD) :
    (dat1 (F := Ideal) V c).arrAt 3 cfg1.N = pairArr (V c main_v6) (V c main_v7) (V c main_v8) :=
  (dat1 V c).arrAt_eq_of_cover 3 (pairArr (V c main_v6) (V c main_v7) (V c main_v8)) (fun t _ => flushed_eq V c t) cover

end Cert.KernelIdeal.Pair

end
-- ==== Proof.Glue.lean ====
/-
  The host stretches between and after the two kernel regions, read as values: the three reshapes that hand the
  first region's two results and the bias to the second region, and the last reshape from [96, 96, 16, 512] to
  [9216, 16, 512].
-/
import proofs.«101371_j80934363726437_2_alg».proof.Proof.Gen.KernelIdeal.Frame
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.Glue

open Cert.KernelIdeal Cert.KernelIdeal.Gen

variable (m : (ℓ : Loc nD τ sig) → Buf (Elt Ideal) ℓ) (ρ : Dev nD → PrngReg)

/-- The result array is the second region's output, reshaped. -/
theorem W5_v10 (c : Dev nD) : (W5 m ρ c (Proc.devRef .tc main_v10) : S9216x16x512.Idx → EReal)
    = shapeCast S9216x16x512 (W4 m ρ c (Proc.devRef .tc main_v9) : S96x96x16x512.Idx → EReal) shapeCasts_S96x96x16x512_S9216x16x512 := by
  dsimp only [W5, hostOps2]
  after_results
  rfl

/-- The second region's first operand is the first region's first result, reshaped. -/
theorem V3_v6 (c : Dev nD) : (V3 m ρ c main_v6 : S96x16x512.Idx → EReal)
    = shapeCast S96x16x512 (W2 m ρ c (Proc.devRef .tc main_v5_0) : S1536x512.Idx → EReal) shapeCasts_S1536x512_S96x16x512 := by
  dsimp only [V3, W3, hostOps1]
  after_results
  rfl

/-- Its second operand is the first region's second result, reshaped. -/
theorem V3_v7 (c : Dev nD) : (V3 m ρ c main_v7 : S96x16x512.Idx → EReal)
    = shapeCast S96x16x512 (W2 m ρ c (Proc.devRef .tc main_v5_1) : S1536x512.Idx → EReal) shapeCasts_S1536x512_S96x16x512 := by
  dsimp only [V3, W3, hostOps1]
  after_results
  rfl

/-- Its third operand is the bias argument, reshaped to one row. -/
theorem V3_v8 (c : Dev nD) : (V3 m ρ c main_v8 : S1x512.Idx → EReal)
    = shapeCast S1x512 (W2 m ρ c (Proc.devRef .tc main_arg2) : S512.Idx → EReal) shapeCasts_S512_S1x512 := by
  dsimp only [V3, W3, hostOps1]
  after_results
  rfl

/-- The bias argument is untouched by the first host stretch and the first region. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

end Cert.KernelIdeal.Glue

end
-- ==== Proof.ABPayload.lean ====
/-
  The two matrix products of the first region, read entry by entry on the extended reals.

  The region's body loads an activation block `x0 : [1536, 512]` and two weight blocks `x1, x2 : [512, 512]`,
  applies the leaky rectifier to every entry of `x0` (the entry itself above zero, its multiple by the slope
  elsewhere), and stores the two products of the rectified block with the weight blocks. A change of float
  format is the identity on the extended reals and both products accumulate into zero, so entry `(r, c)` of
  each stored block is the plain sum over `k < 512` of `lrelu (x0 r k) · w k c`.
-/
import proofs.«101371_j80934363726437_2_alg».proof.Proof.Gen.KernelIdeal.Skeleton
import proofs.«101371_j80934363726437_2_alg».proof.Proof.Spec
import Idealize.ShloMosaic.PureOps.Ideal.Laws
import Idealize.ShloMosaic.Lib.ValueIdx
import Idealize.ShloMosaic.Lib.Pipeline.Value

noncomputable section

namespace Cert.KernelIdeal.AB

open Cert.KernelIdeal Cert.KernelIdeal.Gen Idealize.ShloMosaic Idealize.ShloMosaic.ValueIdx
open Cert.PairSpec (lrelu slope)

/-- The rectified block at an entry: the comparison with zero selects the entry or its multiple by the slope. -/
theorem rect_at (x0 : Vec Ideal S1536x512 .f32) (i : S1536x512.Idx) :
    k0_pay1 (F := Ideal) x0 i = lrelu (x0 i) := by
  unfold k0_pay1
  rw [truncf_apply, select_apply, cmpf_apply, mulf_apply, broadcast_apply, broadcast_apply, shapeCast_self]
  show Scalar.select (Ideal.cmp .ogt (x0 i) (Ideal.ofBits .f32 0x00000000#32)) (x0 i) (x0 i * Ideal.ofBits .f32 0x3DCCCCCD#32) = _
  rw [Ideal.ofBits_zero_f32]
  unfold Cert.PairSpec.lrelu Cert.PairSpec.slope Scalar.select Ideal.cmp
  by_cases h : (0 : EReal) < x0 i
  · rw [if_pos h]; simp [h]
  · rw [if_neg h]; simp [h]

/-- The products' dimension numbers: rows of the left operand against columns of the right, one contracted axis. -/
abbrev D := dot_S1536x512_S512x512_S1536x512_1_0_0_1_n_n

/-- Where the left operand is read for output entry `i` and contraction position `q`: row `i 0`, column `q`. -/
theorem lhs_row (i : S1536x512.Idx) (q : D.contr.Idx) : (D.lhsIdx i q 0).val = (i 0).val := by
  unfold DotDims.lhsIdx
  rw [dif_neg (show ¬(0 : Fin S1536x512.rank) ∈ D.lhsBatch by decide), dif_pos (show (0 : Fin S1536x512.rank) ∈ D.lhsNonContracting by decide)]
  rfl
theorem lhs_col (i : S1536x512.Idx) (q : D.contr.Idx) : (D.lhsIdx i q 1).val = (q ⟨0, by decide⟩).val :=
  D.lhsIdx_val_of_single rfl i q
/-- Where the right operand is read: row `q`, column `i 1`. -/
theorem rhs_row (i : S1536x512.Idx) (q : D.contr.Idx) : (D.rhsIdx i q 0).val = (q ⟨0, by decide⟩).val :=
  D.rhsIdx_val_of_single rfl i q
theorem rhs_col (i : S1536x512.Idx) (q : D.contr.Idx) : (D.rhsIdx i q 1).val = (i 1).val := by
  unfold DotDims.rhsIdx
  rw [dif_neg (show ¬(1 : Fin S512x512.rank) ∈ D.rhsBatch by decide), dif_pos (show (1 : Fin S512x512.rank) ∈ D.rhsNonContracting by decide)]
  rfl

/-- A product into the zero accumulator at entry `(r, c)`: the sum over the contracted axis of the left operand's
    row `r` against the right operand's column `c`. -/
theorem prod_at (l : FVec Ideal S1536x512 .bf16) (w : FVec Ideal S512x512 .bf16) (r : Fin 1536) (c : Fin 512) :
    matmul D none l w (constant (F := Ideal) S1536x512 .f32 0x00000000#32) (ix2 r c)
      = ∑ k : Fin 512, l (ix2 r k) * w (ix2 k c) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r c) ((contrEquiv1 D 512 rfl rfl).symm k) = ix2 r k := funext fun a => Fin.ext (by
    match a with
    | ⟨0, _⟩ => exact lhs_row _ _
    | ⟨1, _⟩ => exact (lhs_col _ _).trans hk)
  have er : D.rhsIdx (ix2 r c) ((contrEquiv1 D 512 rfl rfl).symm k) = ix2 k c := funext fun a => Fin.ext (by
    match a with
    | ⟨0, _⟩ => exact (rhs_row _ _).trans hk
    | ⟨1, _⟩ => exact rhs_col _ _)
  rw [el, er]

/-- The first stored block at entry `(r, c)`. -/
theorem pay2_at (x0 : Vec Ideal S1536x512 .f32) (x1 : Vec Ideal S512x512 .f32) (r : Fin 1536) (c : Fin 512) :
    k0_pay2 (F := Ideal) x0 x1 (ix2 r c) = ∑ k : Fin 512, lrelu (x0 (ix2 r k)) * x1 (ix2 k c) := by
  unfold k0_pay2
  refine (prod_at _ _ r c).trans ?_
  refine Finset.sum_congr rfl fun k _ => ?_
  rw [rect_at, truncf_apply, shapeCast_self]

/-- The second stored block at entry `(r, c)`. -/
theorem pay3_at (x0 : Vec Ideal S1536x512 .f32) (x2 : Vec Ideal S512x512 .f32) (r : Fin 1536) (c : Fin 512) :
    k0_pay3 (F := Ideal) x0 x2 (ix2 r c) = ∑ k : Fin 512, lrelu (x0 (ix2 r k)) * x2 (ix2 k c) := by
  unfold k0_pay3
  refine (prod_at _ _ r c).trans ?_
  refine Finset.sum_congr rfl fun k _ => ?_
  rw [rect_at, truncf_apply, shapeCast_self]

end Cert.KernelIdeal.AB

end
-- ==== Proof.ABHost.lean ====
/-
  The arrays the first region is entered with, read entry by entry from the launch arrays.

  Before the region the program flattens the activations `[96, 16, 512]` to `[1536, 512]` (row `16 p + b` of the flat
  array is row `(p, b)` of the original), cuts the weight `[512, 1024]` into its first and last 512 columns, and
  transposes each half: entry `(k, c)` of the first transposed half is the weight at `(c, k)`, of the second at
  `(c, 512 + k)`.
-/
import proofs.«101371_j80934363726437_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.AB

open Cert.KernelIdeal Cert.KernelIdeal.Gen Idealize.ShloMosaic Idealize.ShloMosaic.TcCoe Idealize.SL.Sem
open Idealize.ShloMosaic.ValueIdx Idealize.ShloMosaic.StableHlo

/-! ## The three layout operations at an entry, over any arrays -/

/-- The flattened activations at `(r, k)`: the original at `(r / 16, r % 16, k)` (same row-major position). -/
theorem flat_at (x : S96x16x512.Idx → EReal) (r : Fin 1536) (k : Fin 512) :
    shapeCast S1536x512 x shapeCasts_S96x16x512_S1536x512 (ix2 r k)
      = x (ix3 (⟨r.val / 16, by omega⟩ : Fin 96) (⟨r.val % 16, by omega⟩ : Fin 16) k) := by
  refine shapeCast_apply x _ (ix2 r k) _ ?_
  rw [Shape.rowMajor_val_three, Shape.rowMajor_val_two]
  show ((r.val / 16) * 16 + r.val % 16) * 512 + k.val = r.val * 512 + k.val
  omega

/-- The transposed first half of the weight at `(k, c)`: the weight at `(c, k)`. -/
theorem headT_at (W : S512x1024.Idx → EReal) (k c' : Fin 512) :
    transpose S512x512 [1, 0] (extractStridedSlice S512x512 ![0, 0] W slices_S512x1024_S512x512_0_0) transposes_S512x512_S512x512_1_0 (ix2 k c')
      = W (ix2 c' (⟨k.val, by omega⟩ : Fin 1024)) := by
  refine (transpose_apply _ _ _ (ix2 k c') (ix2 c' k) ?_).trans ?_
  · intro b
    match b with
    | ⟨0, _⟩ => rfl
    | ⟨1, _⟩ => rfl
  · refine extractStridedSlice_apply _ _ _ (ix2 c' k) _ ?_
    intro a
    match a with
    | ⟨0, _⟩ => show c'.val = 0 + c'.val; omega
    | ⟨1, _⟩ => show k.val = 0 + k.val; omega

/-- The transposed second half of the weight at `(k, c)`: the weight at `(c, 512 + k)`. -/
theorem tailT_at (W : S512x1024.Idx → EReal) (k c' : Fin 512) :
    transpose S512x512 [1, 0] (extractStridedSlice S512x512 ![0, 512] W slices_S512x1024_S512x512_0_512) transposes_S512x512_S512x512_1_0 (ix2 k c')
      = W (ix2 c' (⟨512 + k.val, by omega⟩ : Fin 1024)) := by
  refine (transpose_apply _ _ _ (ix2 k c') (ix2 c' k) ?_).trans ?_
  · intro b
    match b with
    | ⟨0, _⟩ => rfl
    | ⟨1, _⟩ => rfl
  · refine extractStridedSlice_apply _ _ _ (ix2 c' k) _ ?_
    intro a
    match a with
    | ⟨0, _⟩ => show c'.val = 0 + c'.val; omega
    | ⟨1, _⟩ => show 512 + k.val = 512 + k.val; rfl

/-! ## The region's entry contents as the operations' terms of the launch arrays -/

variable (m : (ℓ : Loc nD τ sig) → Buf (Elt Ideal) ℓ) (ρ : Dev nD → PrngReg) (c : Dev nD)

theorem v0_term :
    (Gen.V1 m ρ c main_v0 : S1536x512.Idx → EReal)
      = shapeCast S1536x512 (m ((c : Thread nD τ).loc main_arg0) : S96x16x512.Idx → EReal) shapeCasts_S96x16x512_S1536x512 := by
  dsimp only [Gen.V1, Gen.W1, Gen.hostOps0]
  after_results
  rfl

theorem v3_term :
    (Gen.V1 m ρ c main_v3 : S512x512.Idx → EReal)
      = transpose S512x512 [1, 0] (extractStridedSlice S512x512 ![0, 0] (m ((c : Thread nD τ).loc main_arg1) : S512x1024.Idx → EReal) slices_S512x1024_S512x512_0_0) transposes_S512x512_S512x512_1_0 := by
  dsimp only [Gen.V1, Gen.W1, Gen.hostOps0]
  after_results

theorem v4_term :
    (Gen.V1 m ρ c main_v4 : S512x512.Idx → EReal)
      = transpose S512x512 [1, 0] (extractStridedSlice S512x512 ![0, 512] (m ((c : Thread nD τ).loc main_arg1) : S512x1024.Idx → EReal) slices_S512x1024_S512x512_0_512) transposes_S512x512_S512x512_1_0 := by
  dsimp only [Gen.V1, Gen.W1, Gen.hostOps0]
  after_results

/-! ## The entry contents at an entry -/

/-- The flat activations the region reads, at `(r, k)`. -/
theorem v0_at (r : Fin 1536) (k : Fin 512) :
    (Gen.V1 m ρ c main_v0 : S1536x512.Idx → EReal) (ix2 r k)
      = (m ((c : Thread nD τ).loc main_arg0) : S96x16x512.Idx → EReal) (ix3 (⟨r.val / 16, by omega⟩ : Fin 96) (⟨r.val % 16, by omega⟩ : Fin 16) k) := by
  rw [v0_term]
  exact flat_at _ r k

/-- The first weight block the region reads, at `(k, c)`. -/
theorem v3_at (k c' : Fin 512) :
    (Gen.V1 m ρ c main_v3 : S512x512.Idx → EReal) (ix2 k c')
      = (m ((c : Thread nD τ).loc main_arg1) : S512x1024.Idx → EReal) (ix2 c' (⟨k.val, by omega⟩ : Fin 1024)) := by
  rw [v3_term]
  exact headT_at _ k c'

/-- The second weight block the region reads, at `(k, c)`. -/
theorem v4_at (k c' : Fin 512) :
    (Gen.V1 m ρ c main_v4 : S512x512.Idx → EReal) (ix2 k c')
      = (m ((c : Thread nD τ).loc main_arg1) : S512x1024.Idx → EReal) (ix2 c' (⟨512 + k.val, by omega⟩ : Fin 1024)) := by
  rw [v4_term]
  exact tailT_at _ k c'

end Cert.KernelIdeal.AB

end
-- ==== Proof.ABValue.lean ====
/-
  The first region's two result arrays after the run, as functions of the launch arrays.

  The region's grid has ONE point, and at it every window's block is its whole array (block index zero, block extents
  the array's). So each input block is the array the region was entered with, what the body leaves in each output's
  staging buffer is one whole-buffer store of a product of those arrays, and the single write-back covers the output
  array: after the region the two result arrays hold the two products of the entry arrays (for any entry contents).
  At the extended reals the products are sums of rectified activations against weight entries, and the entry arrays
  are the flattened activations and the two transposed halves of the weight, so the two results are the
  specification's first and second partial products, flat row `16 p + b`.
-/
import proofs.«101371_j80934363726437_2_alg».proof.Proof.Gen.KernelIdeal.Frame
import proofs.«101371_j80934363726437_2_alg».proof.Proof.Spec
import proofs.«101371_j80934363726437_2_alg».proof.Proof.ABPayload
import proofs.«101371_j80934363726437_2_alg».proof.Proof.ABHost
import Idealize.ShloMosaic.Lib.Pipeline.Value
import Idealize.ShloMosaic.Lib.ValueIdx

noncomputable section

namespace Cert.KernelIdeal.AB

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The grid has one point and every window's block index there is zero on both axes. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

section AnyContents
variable {F : FTy → Type} [FloatOps F]
variable (V : (c : Dev nD) → (b : Ref sig .tc) → Buf (Elt F) ((c : Thread nD τ).loc b))

theorem iblk0_0 (c : Dev nD) (t : Fin cfg0.N) : (iblk0 V c 0 t : S1536x512.Idx → Elt F .f32) = V c main_v0 := by
  obtain ⟨e0, e1, -⟩ := idx_zero t
  funext y
  show V c main_v0 (((cfg0.win 0).blk t).view.emb y) = V c main_v0 y
  refine congrArg (V c main_v0) (funext fun a => Fin.ext ?_)
  match a with
  | ⟨0, _⟩ => show win0_0.index t (0 : Fin 2) * 1536 + 1 * (y 0).val = (y 0).val; rw [e0]; omega
  | ⟨1, _⟩ => show win0_0.index t (1 : Fin 2) * 512 + 1 * (y 1).val = (y 1).val; rw [e1]; omega

theorem iblk0_1 (c : Dev nD) (t : Fin cfg0.N) : (iblk0 V c 1 t : S512x512.Idx → Elt F .f32) = V c main_v3 := by
  obtain ⟨-, -, e0, e1, -⟩ := idx_zero t
  funext y
  show V c main_v3 (((cfg0.win 1).blk t).view.emb y) = V c main_v3 y
  refine congrArg (V c main_v3) (funext fun a => Fin.ext ?_)
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

theorem iblk0_2 (c : Dev nD) (t : Fin cfg0.N) : (iblk0 V c 2 t : S512x512.Idx → Elt F .f32) = V c main_v4 := by
  obtain ⟨-, -, -, -, e0, e1, -⟩ := idx_zero t
  funext y
  show V c main_v4 (((cfg0.win 2).blk t).view.emb y) = V c main_v4 y
  refine congrArg (V c main_v4) (funext fun a => Fin.ext ?_)
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- An output window's one block is its whole array: any contents of the staging buffer, written back, are those
    contents read through the block. -/
theorem whole3 (G : S1536x512.Idx → Elt F .f32) (t : Fin cfg0.N) :
    (cfg0.win 3).cut (grid0.coords t) G = ((cfg0.win 3).blk t).view.read (Elt F) G := by
  obtain ⟨-, -, -, -, -, -, e0, e1, -⟩ := idx_zero t
  funext y
  show G y = G (((cfg0.win 3).blk t).view.emb y)
  refine congrArg G (funext fun a => Fin.ext ?_)
  match a with
  | ⟨0, _⟩ => show (y 0).val = win0_3.index t (0 : Fin 2) * 1536 + 1 * (y 0).val; rw [e0]; omega
  | ⟨1, _⟩ => show (y 1).val = win0_3.index t (1 : Fin 2) * 512 + 1 * (y 1).val; rw [e1]; omega

theorem whole4 (G : S1536x512.Idx → Elt F .f32) (t : Fin cfg0.N) :
    (cfg0.win 4).cut (grid0.coords t) G = ((cfg0.win 4).blk t).view.read (Elt F) G := by
  obtain ⟨-, -, -, -, -, -, -, -, e0, e1⟩ := idx_zero t
  funext y
  show G y = G (((cfg0.win 4).blk t).view.emb y)
  refine congrArg G (funext fun a => Fin.ext ?_)
  match a with
  | ⟨0, _⟩ => show (y 0).val = win0_4.index t (0 : Fin 2) * 1536 + 1 * (y 0).val; rw [e0]; omega
  | ⟨1, _⟩ => show (y 1).val = win0_4.index t (1 : Fin 2) * 512 + 1 * (y 1).val; rw [e1]; omega

/-- What the one point writes back to the first result: the first product of the arrays as the region finds them. -/
theorem flushed3 (c : Dev nD) (t : Fin cfg0.N) :
    (dat0 V c).flushed 3 t = ((cfg0.win 3).blk t).view.read (Elt F) (k0_pay2 (V c main_v0) (V c main_v3)) := by
  show (cfg0.win 3).cut (grid0.coords t) ((dat0 V c).after 3 t) = _
  rw [after0_3]
  unfold out0_3
  rw [View.canon_unit_zero hz]
  simp only [View.ld_unit_zero (S := S1536x512) hz, View.ld_unit_zero (S := S512x512) hz]
  rw [iblk0_0, iblk0_1]
  exact whole3 _ t

theorem flushed4 (c : Dev nD) (t : Fin cfg0.N) :
    (dat0 V c).flushed 4 t = ((cfg0.win 4).blk t).view.read (Elt F) (k0_pay3 (V c main_v0) (V c main_v4)) := by
  show (cfg0.win 4).cut (grid0.coords t) ((dat0 V c).after 4 t) = _
  rw [after0_4]
  unfold out0_4
  rw [View.canon_unit_zero hz]
  simp only [View.ld_unit_zero (S := S1536x512) hz, View.ld_unit_zero (S := S512x512) hz]
  rw [iblk0_0, iblk0_2]
  exact whole4 _ t

/-- Every entry of the first result array is in the one point's block. -/
theorem cover3 (i : S1536x512.Idx) : ∃ t : Fin cfg0.N, (cfg0.win 3).flush t = true ∧ i ∈ ((cfg0.win 3).blk t).view.set := by
  obtain ⟨-, -, -, -, -, -, e0, e1, -⟩ := idx_zero t0_0
  refine ⟨t0_0, flush0_3 t0_0, ?_⟩
  show i ∈ ((View.whole main_v5_0).slice (win0_3.rect t0_0)).set
  rw [View.set_slice_whole, Rect.mem_set_unit]
  intro a
  have h0 : (i 0).val < 1536 := (i 0).isLt
  have h1 : (i 1).val < 512 := (i 1).isLt
  match a with
  | ⟨0, _⟩ => show win0_3.index t0_0 (0 : Fin 2) * 1536 ≤ (i 0).val ∧ (i 0).val < win0_3.index t0_0 (0 : Fin 2) * 1536 + 1536; rw [e0]; omega
  | ⟨1, _⟩ => show win0_3.index t0_0 (1 : Fin 2) * 512 ≤ (i 1).val ∧ (i 1).val < win0_3.index t0_0 (1 : Fin 2) * 512 + 512; rw [e1]; omega

theorem cover4 (i : S1536x512.Idx) : ∃ t : Fin cfg0.N, (cfg0.win 4).flush t = true ∧ i ∈ ((cfg0.win 4).blk t).view.set := by
  obtain ⟨-, -, -, -, -, -, -, -, e0, e1⟩ := idx_zero t0_0
  refine ⟨t0_0, flush0_4 t0_0, ?_⟩
  show i ∈ ((View.whole main_v5_1).slice (win0_4.rect t0_0)).set
  rw [View.set_slice_whole, Rect.mem_set_unit]
  intro a
  have h0 : (i 0).val < 1536 := (i 0).isLt
  have h1 : (i 1).val < 512 := (i 1).isLt
  match a with
  | ⟨0, _⟩ => show win0_4.index t0_0 (0 : Fin 2) * 1536 ≤ (i 0).val ∧ (i 0).val < win0_4.index t0_0 (0 : Fin 2) * 1536 + 1536; rw [e0]; omega
  | ⟨1, _⟩ => show win0_4.index t0_0 (1 : Fin 2) * 512 ≤ (i 1).val ∧ (i 1).val < win0_4.index t0_0 (1 : Fin 2) * 512 + 512; rw [e1]; omega

/-- The first result array after the region: the first product of the arrays the region was entered with. -/
theorem arr3_any (c : Dev nD) :
    (dat0 V c).arrAt 3 cfg0.N = k0_pay2 (V c main_v0) (V c main_v3) :=
  (dat0 V c).arrAt_eq_of_cover 3 (k0_pay2 (V c main_v0) (V c main_v3)) (fun t _ => flushed3 V c t) cover3

/-- The second result array after the region: the second product. -/
theorem arr4_any (c : Dev nD) :
    (dat0 V c).arrAt 4 cfg0.N = k0_pay3 (V c main_v0) (V c main_v4) :=
  (dat0 V c).arrAt_eq_of_cover 4 (k0_pay3 (V c main_v0) (V c main_v4)) (fun t _ => flushed4 V c t) cover4

end AnyContents

/-! ## At the extended reals: the two result arrays are the specification's partial products -/

section Spec
variable (m : (ℓ : Loc nD τ sig) → Buf (Elt Ideal) ℓ) (ρ : Dev nD → PrngReg) (c : Dev nD)

/-- The first product of the region's entry arrays is, entry by entry, the part of the contraction that meets the
    first 512 columns of the weight: row `r` of the flat activations is row `(r / 16, r % 16)` of the launch array, and
    entry `(k, c)` of the first weight block is the weight at `(c, k)`. -/
theorem head_eq :
    (k0_pay2 (F := Ideal) (Gen.V1 m ρ c main_v0) (Gen.V1 m ρ c main_v3) : S1536x512.Idx → EReal)
      = Cert.PairSpec.headFlat (m ((c : Thread nD τ).loc main_arg0)) (m ((c : Thread nD τ).loc main_arg1)) := by
  funext j
  obtain ⟨r, c', rfl⟩ : ∃ (r : Fin 1536) (c' : Fin 512), j = ix2 r c' := ⟨j 0, j 1, eq_ix2 j⟩
  refine (pay2_at (Gen.V1 m ρ c main_v0) (Gen.V1 m ρ c main_v3) r c').trans ?_
  show _ = Cert.PairSpec.headSum _ _ (⟨r.val / 16, by omega⟩ : Fin 96) (⟨r.val % 16, by omega⟩ : Fin 16) c'
  unfold Cert.PairSpec.headSum
  refine Finset.sum_congr rfl fun k _ => ?_
  exact congrArg₂ (· * ·) (congrArg Cert.PairSpec.lrelu (v0_at m ρ c r k)) (v3_at m ρ c k c')

/-- The second product likewise meets the last 512 columns. -/
theorem tail_eq :
    (k0_pay3 (F := Ideal) (Gen.V1 m ρ c main_v0) (Gen.V1 m ρ c main_v4) : S1536x512.Idx → EReal)
      = Cert.PairSpec.tailFlat (m ((c : Thread nD τ).loc main_arg0)) (m ((c : Thread nD τ).loc main_arg1)) := by
  funext j
  obtain ⟨r, c', rfl⟩ : ∃ (r : Fin 1536) (c' : Fin 512), j = ix2 r c' := ⟨j 0, j 1, eq_ix2 j⟩
  refine (pay3_at (Gen.V1 m ρ c main_v0) (Gen.V1 m ρ c main_v4) r c').trans ?_
  show _ = Cert.PairSpec.tailSum _ _ (⟨r.val / 16, by omega⟩ : Fin 96) (⟨r.val % 16, by omega⟩ : Fin 16) c'
  unfold Cert.PairSpec.tailSum
  refine Finset.sum_congr rfl fun k _ => ?_
  exact congrArg₂ (· * ·) (congrArg Cert.PairSpec.lrelu (v0_at m ρ c r k)) (v4_at m ρ c k c')

/-- The first result array after the region, from the launch arrays. -/
theorem arrAt_3 :
    (Gen.dat0 (F := Ideal) (Gen.V1 m ρ) c).arrAt 3 cfg0.N
      = Cert.PairSpec.headFlat (m ((c : Thread nD τ).loc main_arg0)) (m ((c : Thread nD τ).loc main_arg1)) :=
  (arr3_any (Gen.V1 m ρ) c).trans (head_eq m ρ c)

/-- The second result array after the region, from the launch arrays. -/
theorem arrAt_4 :
    (Gen.dat0 (F := Ideal) (Gen.V1 m ρ) c).arrAt 4 cfg0.N
      = Cert.PairSpec.tailFlat (m ((c : Thread nD τ).loc main_arg0)) (m ((c : Thread nD τ).loc main_arg1)) :=
  (arr4_any (Gen.V1 m ρ) c).trans (tail_eq m ρ c)

end Spec

end Cert.KernelIdeal.AB

end
-- ==== Proof.KValue.lean ====
/-
  The kernel program's result as one function of its arguments. The last reshape reads the second region's output
  at (p, q, b, d) for row r = 96 p + q; the second region leaves there the sum of its first operand at (p, b, d), its
  second at (q, b, d) and the bias row at d; its operands are the first region's two results reshaped from
  [1536, 512] to [96, 16, 512] (row 16 p + b) and the bias reshaped to one row; and the first region's results are the
  two partial products of the rectified input with the two halves of the weight. Together: `PairSpec.G`.
-/
import proofs.«101371_j80934363726437_2_alg».proof.Proof.Spec
import proofs.«101371_j80934363726437_2_alg».proof.Proof.KRun
import proofs.«101371_j80934363726437_2_alg».proof.Proof.PairValue
import proofs.«101371_j80934363726437_2_alg».proof.Proof.Glue
import proofs.«101371_j80934363726437_2_alg».proof.Proof.ABValue

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The result buffer's final contents are `PairSpec.G` of the three argument arrays. -/
theorem result_eq (c : Dev nD)  :
    (W5 m ρ c (Proc.devRef .tc main_v10) : S9216x16x512.Idx → EReal)
      = Cert.PairSpec.G (m ((c : Thread nD τ).loc main_arg0)) (m ((c : Thread nD τ).loc main_arg1)) (m ((c : Thread nD τ).loc main_arg2)) := by
  have e9 : (W4 m ρ c (Proc.devRef .tc main_v9) : S96x96x16x512.Idx → EReal)
      = Pair.pairArr (V3 m ρ c main_v6) (V3 m ρ c main_v7) (V3 m ρ c main_v8) :=
    (W4_arr m ρ c 3).trans (Pair.final (V3 m ρ) c)
  have eA : (W2 m ρ c (Proc.devRef .tc main_v5_0) : S1536x512.Idx → EReal)
      = Cert.PairSpec.headFlat (m ((c : Thread nD τ).loc main_arg0)) (m ((c : Thread nD τ).loc main_arg1)) :=
    (W2_arr m ρ c 3).trans (AB.arrAt_3 m ρ c)
  have eB : (W2 m ρ c (Proc.devRef .tc main_v5_1) : S1536x512.Idx → EReal)
      = Cert.PairSpec.tailFlat (m ((c : Thread nD τ).loc main_arg0)) (m ((c : Thread nD τ).loc main_arg1)) :=
    (W2_arr m ρ c 4).trans (AB.arrAt_4 m ρ c)
  rw [Glue.W5_v10]
  funext i
  obtain ⟨r, b, d, rfl⟩ : ∃ (r : Fin 9216) (b : Fin 16) (d : Fin 512), i = ix3 r b d := ⟨i 0, i 1, i 2, eq_ix3 i⟩
  rw [Cert.PairSpec.G_ix3]
  have hr := r.isLt
  have hb := b.isLt
  refine (shapeCast_apply _ _ (ix3 r b d) (ix4 (⟨r.val / 96, by omega⟩ : Fin 96) (⟨r.val % 96, by omega⟩ : Fin 96) b d) ?_).trans ?_
  · rw [Shape.rowMajor_val_four, Shape.rowMajor_val_three]
    show ((r.val / 96 * 96 + r.val % 96) * 16 + b.val) * 512 + d.val = (r.val * 16 + b.val) * 512 + d.val
    have := Nat.div_add_mod r.val 96
    omega
  refine (congrFun e9 _).trans ?_
  unfold Pair.pairArr Cert.PairSpec.Gat
  congr 1
  · congr 1
    · rw [Glue.V3_v6]
      refine (shapeCast_apply _ _ (ix3 (⟨r.val / 96, by omega⟩ : Fin 96) b d) (ix2 (⟨16 * (r.val / 96) + b.val, by omega⟩ : Fin 1536) d) ?_).trans ?_
      · rw [Shape.rowMajor_val_two, Shape.rowMajor_val_three]
        show (16 * (r.val / 96) + b.val) * 512 + d.val = (r.val / 96 * 16 + b.val) * 512 + d.val
        omega
      refine (congrFun eA _).trans ?_
      show Cert.PairSpec.headFlatAt _ _ (⟨16 * (r.val / 96) + b.val, _⟩ : Fin 1536) d = _
      unfold Cert.PairSpec.headFlatAt
      congr 1
      · exact Fin.ext (show (16 * (r.val / 96) + b.val) / 16 = r.val / 96 by omega)
      · exact Fin.ext (show (16 * (r.val / 96) + b.val) % 16 = b.val by omega)
    · rw [Glue.V3_v7]
      refine (shapeCast_apply _ _ (ix3 (⟨r.val % 96, by omega⟩ : Fin 96) b d) (ix2 (⟨16 * (r.val % 96) + b.val, by omega⟩ : Fin 1536) d) ?_).trans ?_
      · rw [Shape.rowMajor_val_two, Shape.rowMajor_val_three]
        show (16 * (r.val % 96) + b.val) * 512 + d.val = (r.val % 96 * 16 + b.val) * 512 + d.val
        omega
      refine (congrFun eB _).trans ?_
      show Cert.PairSpec.tailFlatAt _ _ (⟨16 * (r.val % 96) + b.val, _⟩ : Fin 1536) d = _
      unfold Cert.PairSpec.tailFlatAt
      congr 1
      · exact Fin.ext (show (16 * (r.val % 96) + b.val) / 16 = r.val % 96 by omega)
      · exact Fin.ext (show (16 * (r.val % 96) + b.val) % 16 = b.val by omega)
  · rw [Glue.V3_v8]
    refine (shapeCast_apply _ _ (ix2 (0 : Fin 1) d) (ix1 d) ?_).trans ?_
    · rw [Shape.rowMajor_val_one, Shape.rowMajor_val_two]
      show d.val = 0 * 512 + d.val
      omega
    exact congrFun (Glue.W2_arg2 m ρ c) (ix1 d)

/-- The run: termination, no fault, the result array at `PairSpec.G` of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v10) = Cert.PairSpec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (KRun.run_named m ρ)

end Cert.KernelIdeal.KValue

end
-- ==== Proof.RefRun.lean ====
/-
  The reference program's run. Its entry function is a straight line of host operations once the two
  module-local functions it calls (the leaky rectifier, and the select that one calls) are unfolded at their call
  sites over the buffers each call names: eighteen operations in all. Every weakly fair execution of it from any
  memory with zero counters terminates, and every buffer ends at the operations' fold over the launch contents.
-/
import proofs.«101371_j80934363726437_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the calls unfolded: the two broadcasts of the input along each of
    the two row axes and their concatenation; the slope constant; the rectifier's six operations (the zero, its
    broadcast, the comparison, the slope converted to its own type and broadcast, the product) and the select of
    the function it calls; then the contraction with the weight, the bias broadcast twice, the sum, the reshape. -/
abbrev ops : List (HloOp τ sig (Elt F)) :=
  [ unary main_arg0 main_v0 (broadcastInDim S96x1x16x512 ![0, 2, 3] bcast_S96x16x512_S96x1x16x512_0_2_3 : (⟨S96x16x512, .f32⟩ : BufTy).Contents (Elt F) → (⟨S96x1x16x512, .f32⟩ : BufTy).Contents (Elt F)),
    unary main_v0 main_v1 (broadcastInDim S96x96x16x512 ![0, 1, 2, 3] bcast_S96x1x16x512_S96x96x16x512_0_1_2_3 : (⟨S96x1x16x512, .f32⟩ : BufTy).Contents (Elt F) → (⟨S96x96x16x512, .f32⟩ : BufTy).Contents (Elt F)),
    unary main_arg0 main_v2 (broadcastInDim S1x96x16x512 ![1, 2, 3] bcast_S96x16x512_S1x96x16x512_1_2_3 : (⟨S96x16x512, .f32⟩ : BufTy).Contents (Elt F) → (⟨S1x96x16x512, .f32⟩ : BufTy).Contents (Elt F)),
    unary main_v2 main_v3 (broadcastInDim S96x96x16x512 ![0, 1, 2, 3] bcast_S1x96x16x512_S96x96x16x512_0_1_2_3 : (⟨S1x96x16x512, .f32⟩ : BufTy).Contents (Elt F) → (⟨S96x96x16x512, .f32⟩ : BufTy).Contents (Elt F)),
    binary main_v1 main_v3 main_v4 ((fun a b => concatenate S96x96x16x1024 3 [⟨S96x96x16x512, a⟩, ⟨S96x96x16x512, b⟩] concatenates_S96x96x16x512_S96x96x16x512_S96x96x16x1024_d3) : (⟨S96x96x16x512, .f32⟩ : BufTy).Contents (Elt F) → (⟨S96x96x16x512, .f32⟩ : BufTy).Contents (Elt F) → (⟨S96x96x16x1024, .f32⟩ : BufTy).Contents (Elt F)),
    nullary main_cst (constant S_ .f32 0x3DCCCCCD#32),
    TRef.nullary main_call0.cst (constant S_ .f32 0x00000000#32),
    TRef.unary main_call0.cst main_call0.v0 (broadcastInDim S96x96x16x1024 ![] bcast_S_S96x96x16x1024),
    TRef.binary (.of main_v4) main_call0.v0 main_call0.v1 (cmpf .oge),
    TRef.unary (.of main_cst) main_call0.v2 id,
    TRef.unary main_call0.v2 main_call0.v3 (broadcastInDim S96x96x16x1024 ![] bcast_S_S96x96x16x1024),
    TRef.binary main_call0.v3 (.of main_v4) main_call0.v4 mulf,
    TRef.ternary main_call0.v1 (.of main_v4) main_call0.v4 main_call0.call0.v0 select,
    binary main_v5 main_arg1 main_v6 ((fun l r => Host.dotGeneral dot_S96x96x16x1024_S512x1024_S96x96x16x512_3_1_012_0_n_n none l r) : (⟨S96x96x16x1024, .f32⟩ : BufTy).Contents (Elt F) → (⟨S512x1024, .f32⟩ : BufTy).Contents (Elt F) → (⟨S96x96x16x512, .f32⟩ : BufTy).Contents (Elt F)),
    unary main_arg2 main_v7 (broadcastInDim S1x1x1x512 ![3] bcast_S512_S1x1x1x512_3 : (⟨S512, .f32⟩ : BufTy).Contents (Elt F) → (⟨S1x1x1x512, .f32⟩ : BufTy).Contents (Elt F)),
    unary main_v7 main_v8 (broadcastInDim S96x96x16x512 ![0, 1, 2, 3] bcast_S1x1x1x512_S96x96x16x512_0_1_2_3 : (⟨S1x1x1x512, .f32⟩ : BufTy).Contents (Elt F) → (⟨S96x96x16x512, .f32⟩ : BufTy).Contents (Elt F)),
    binary main_v6 main_v8 main_v9 (addf : (⟨S96x96x16x512, .f32⟩ : BufTy).Contents (Elt F) → (⟨S96x96x16x512, .f32⟩ : BufTy).Contents (Elt F) → (⟨S96x96x16x512, .f32⟩ : BufTy).Contents (Elt F)),
    reshape main_v9 main_v10 rfl shapeCasts_S96x96x16x512_S9216x16x512 ]

set_option maxRecDepth 1024 in
/-- The entry function is that straight line: the two functions' definitions unfolded at their calls, both sides
    are one chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., reshape_bufs_sub ..⟩

/-- At the compiled mesh, for any float values, from any memory with zero counters: every weakly fair execution of
    the entry function terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  What the reference program leaves in its result buffer, as one function of the three argument arrays. The fold of
  the eighteen operations over the launch contents, read at the result buffer, is `out`: the input's rows paired
  (`pairs`: for each pair of row numbers the two rows side by side), rectified elementwise (`rect`), contracted
  with the weight, the bias added, and the two leading axes merged into one. The argument buffers are written by no
  operation.
-/
import proofs.«101371_j80934363726437_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The paired rows: at `(p, q, b, ·)` row `p` of the input's batch entry `b` followed by row `q` of it — the input
    broadcast along a new second axis, the input broadcast along a new first axis, concatenated along the last. -/
def pairs (x : (⟨S96x16x512, .f32⟩ : BufTy).Contents (Elt F)) : (⟨S96x96x16x1024, .f32⟩ : BufTy).Contents (Elt F) :=
  concatenate S96x96x16x1024 3
    [⟨S96x96x16x512, broadcastInDim S96x96x16x512 ![0, 1, 2, 3] bcast_S96x1x16x512_S96x96x16x512_0_1_2_3
        (broadcastInDim S96x1x16x512 ![0, 2, 3] bcast_S96x16x512_S96x1x16x512_0_2_3 x)⟩,
     ⟨S96x96x16x512, broadcastInDim S96x96x16x512 ![0, 1, 2, 3] bcast_S1x96x16x512_S96x96x16x512_0_1_2_3
        (broadcastInDim S1x96x16x512 ![1, 2, 3] bcast_S96x16x512_S1x96x16x512_1_2_3 x)⟩]
    concatenates_S96x96x16x512_S96x96x16x512_S96x96x16x1024_d3

/-- The leaky rectifier on a whole array: where an element is at least the broadcast zero the element, elsewhere
    the broadcast slope times it. -/
def rect (h : (⟨S96x96x16x1024, .f32⟩ : BufTy).Contents (Elt F)) : (⟨S96x96x16x1024, .f32⟩ : BufTy).Contents (Elt F) :=
  select (cmpf .oge h (broadcastInDim S96x96x16x1024 ![] bcast_S_S96x96x16x1024 (constant S_ .f32 0x00000000#32))) h
    (mulf (broadcastInDim S96x96x16x1024 ![] bcast_S_S96x96x16x1024 (id (constant S_ .f32 0x3DCCCCCD#32))) h)

/-- The result: the rectified pairs contracted with the weight over the last axis of each, plus the bias broadcast
    over the three leading axes, the two row axes merged. -/
def out (x : (⟨S96x16x512, .f32⟩ : BufTy).Contents (Elt F)) (W : (⟨S512x1024, .f32⟩ : BufTy).Contents (Elt F))
    (bias : (⟨S512, .f32⟩ : BufTy).Contents (Elt F)) : (⟨S9216x16x512, .f32⟩ : BufTy).Contents (Elt F) :=
  shapeCast S9216x16x512
    (addf (Host.dotGeneral dot_S96x96x16x1024_S512x1024_S96x96x16x512_3_1_012_0_n_n none (rect (pairs x)) W)
      (broadcastInDim S96x96x16x512 ![0, 1, 2, 3] bcast_S1x1x1x512_S96x96x16x512_0_1_2_3
        (broadcastInDim S1x1x1x512 ![3] bcast_S512_S1x1x1x512_3 bias)))
    shapeCasts_S96x96x16x512_S9216x16x512

/-- The fold at the result buffer: each operation's result at its own buffer is its function of its operands'
    contents, at any other buffer what was there; the typed references of the two functions' buffers carry their
    contents unchanged. -/
theorem out_eq (V : Valuation τ sig (Elt F)) :
    after ops V (main_v10 : DevRef τ sig)
      = out (V (main_arg0 : DevRef τ sig)) (V (main_arg1 : DevRef τ sig)) (V (main_arg2 : DevRef τ sig)) := by
  after_results_simp
  repeat (first
    | rw [unary_result]
    | (rw [unary_result_ne]; rotate_left; decide))
  simp only [TRef.ofBuf, TRef.toBuf, cast_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- The run with the result named: every weakly fair execution of the entry function terminates with the result
    buffer at `out` of the arguments' launch contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (out_eq _), (h c main_arg0).trans (arg0_eq _),
      (h c main_arg1).trans (arg1_eq _), (h c main_arg2).trans (arg2_eq _)⟩)
    (run_main m ρ)

end Cert.ReferenceIdeal.RefRun

end
-- ==== Proof.RefIdx.lean ====
/-
  The reference's paired rows and its rectifier, read at an index on the extended reals. The paired array reads row
  `p` of the input on its first 512 features and row `q` on its last 512: each piece of the concatenation is the
  input broadcast along one of the two row axes. The rectified array at an index is the specification's rectifier of
  the element: the weak comparison against the broadcast zero, with the slope on the left, selects the same value.
-/
import proofs.«101371_j80934363726437_2_alg».proof.Proof.RefOut
import proofs.«101371_j80934363726437_2_alg».proof.Proof.Spec
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.ValueIdx
open Cert.PairSpec (slope lrelu lrelu_weak headSum tailSum Gat G G_ix3 sum_split)

/-! ## The paired rows at an index -/

/-- On the first 512 features the paired array reads row `p`: the first piece of the concatenation, the input
    broadcast along the second row axis. -/
theorem pairs_left (x : (⟨3, ![96, 16, 512]⟩ : Shape).Idx → EReal) (p q : Fin 96) (b : Fin 16) (k : Fin 512) :
    pairs (F := Ideal) x (ix4 p q b (⟨k.val, by omega⟩ : Fin 1024)) = x (ix3 p b k) := by
  unfold pairs
  refine (concatenate_pair_apply_left _ _ _ concatenates_S96x96x16x512_S96x96x16x512_S96x96x16x1024_d3
    (ix4 p q b (⟨k.val, by omega⟩ : Fin 1024)) rfl (ix4 p q b k) (fun a => ?_)).trans ?_
  · match a with
    | ⟨0, _⟩ => rfl
    | ⟨1, _⟩ => rfl
    | ⟨2, _⟩ => rfl
    | ⟨3, _⟩ => rfl
  refine (broadcastInDim_apply _ _ _ (ix4 p q b k) (ix4 p (0 : Fin 1) b k) (fun a => ?_)).trans ?_
  · match a with
    | ⟨0, _⟩ => rfl
    | ⟨1, _⟩ => rfl
    | ⟨2, _⟩ => rfl
    | ⟨3, _⟩ => rfl
  refine broadcastInDim_apply _ _ _ (ix4 p (0 : Fin 1) b k) (ix3 p b k) (fun a => ?_)
  match a with
  | ⟨0, _⟩ => rfl
  | ⟨1, _⟩ => rfl
  | ⟨2, _⟩ => rfl

/-- On the last 512 features it reads row `q`: the second piece, the input broadcast along the first row axis. -/
theorem pairs_right (x : (⟨3, ![96, 16, 512]⟩ : Shape).Idx → EReal) (p q : Fin 96) (b : Fin 16) (k : Fin 512) :
    pairs (F := Ideal) x (ix4 p q b (⟨512 + k.val, by omega⟩ : Fin 1024)) = x (ix3 q b k) := by
  unfold pairs
  refine (concatenate_pair_apply_right _ _ _ concatenates_S96x96x16x512_S96x96x16x512_S96x96x16x1024_d3
    (ix4 p q b (⟨512 + k.val, by omega⟩ : Fin 1024)) rfl rfl (ix4 p q b k) (fun a ha => ?_) ?_).trans ?_
  · match a with
    | ⟨0, _⟩ => rfl
    | ⟨1, _⟩ => rfl
    | ⟨2, _⟩ => rfl
    | ⟨3, _⟩ => exact absurd rfl ha
  · show k.val + 512 = 512 + k.val
    omega
  refine (broadcastInDim_apply _ _ _ (ix4 p q b k) (ix4 (0 : Fin 1) q b k) (fun a => ?_)).trans ?_
  · match a with
    | ⟨0, _⟩ => rfl
    | ⟨1, _⟩ => rfl
    | ⟨2, _⟩ => rfl
    | ⟨3, _⟩ => rfl
  refine broadcastInDim_apply _ _ _ (ix4 (0 : Fin 1) q b k) (ix3 q b k) (fun a => ?_)
  match a with
  | ⟨0, _⟩ => rfl
  | ⟨1, _⟩ => rfl
  | ⟨2, _⟩ => rfl

/-! ## The rectifier at an index -/

/-- A select on the weak comparison with zero is the `if` on it. -/
theorem select_oge_zero (v s : EReal) :
    Scalar.select (Ideal.cmp .oge v 0) v (s * v) = if 0 ≤ v then v else s * v := by
  unfold Scalar.select Ideal.cmp
  by_cases h0 : (0 : EReal) ≤ v
  · rw [if_pos h0, decide_eq_true h0]; rfl
  · rw [if_neg h0, decide_eq_false h0]; rfl

/-- The rectified array at an index is the specification's rectifier of the element. -/
theorem rect_apply (h : (⟨4, ![96, 96, 16, 1024]⟩ : Shape).Idx → EReal) (j : (⟨4, ![96, 96, 16, 1024]⟩ : Shape).Idx) :
    rect (F := Ideal) h j = lrelu (h j) := by
  have hz : broadcastInDim S96x96x16x1024 ![] bcast_S_S96x96x16x1024 (constant (F := Ideal) S_ .f32 0x00000000#32) j = 0 :=
    (broadcastInDim_apply _ _ _ j ix0 (fun a => a.elim0)).trans Ideal.ofBits_zero_f32
  have hs : broadcastInDim S96x96x16x1024 ![] bcast_S_S96x96x16x1024 (id (constant (F := Ideal) S_ .f32 0x3DCCCCCD#32)) j = slope :=
    (broadcastInDim_apply _ _ _ j ix0 (fun a => a.elim0)).trans rfl
  unfold rect
  rw [select_apply, cmpf_apply, mulf_apply, hz, hs, ← lrelu_weak]
  exact select_oge_zero (h j) slope

end Cert.ReferenceIdeal.RefValue

end
-- ==== Proof.RefDot.lean ====
/-
  The reference's contraction and its bias, read at an index on the extended reals. The contraction pairs the last
  axis of the left operand with the second axis of the weight: at `(p, q, b, c)` it is the sum over the 1024 features
  of the left operand at `(p, q, b, ·)` times the weight at `(c, ·)`. The bias, broadcast over the three leading axes,
  reads its entry `c`.
-/
import proofs.«101371_j80934363726437_2_alg».proof.Proof.RefOut
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.ValueIdx

/-! ## The contraction at an index -/

/-- The contraction's dimension numbers: the last axis of the pairs against the second axis of the weight. -/
abbrev D : DotDims S96x96x16x1024 S512x1024 S96x96x16x512 := dot_S96x96x16x1024_S512x1024_S96x96x16x512_3_1_012_0_n_n

theorem lhs_0 (i : S96x96x16x512.Idx) (q : D.contr.Idx) : (D.lhsIdx i q 0).val = (i 0).val := by
  unfold DotDims.lhsIdx
  rw [dif_neg (show ¬(0 : Fin S96x96x16x1024.rank) ∈ D.lhsBatch by decide), dif_pos (show (0 : Fin S96x96x16x1024.rank) ∈ D.lhsNonContracting by decide)]
  rfl
theorem lhs_1 (i : S96x96x16x512.Idx) (q : D.contr.Idx) : (D.lhsIdx i q 1).val = (i 1).val := by
  unfold DotDims.lhsIdx
  rw [dif_neg (show ¬(1 : Fin S96x96x16x1024.rank) ∈ D.lhsBatch by decide), dif_pos (show (1 : Fin S96x96x16x1024.rank) ∈ D.lhsNonContracting by decide)]
  rfl
theorem lhs_2 (i : S96x96x16x512.Idx) (q : D.contr.Idx) : (D.lhsIdx i q 2).val = (i 2).val := by
  unfold DotDims.lhsIdx
  rw [dif_neg (show ¬(2 : Fin S96x96x16x1024.rank) ∈ D.lhsBatch by decide), dif_pos (show (2 : Fin S96x96x16x1024.rank) ∈ D.lhsNonContracting by decide)]
  rfl
theorem lhs_3 (i : S96x96x16x512.Idx) (q : D.contr.Idx) : (D.lhsIdx i q 3).val = (q ⟨0, by decide⟩).val :=
  D.lhsIdx_val_of_single rfl i q
theorem rhs_0 (i : S96x96x16x512.Idx) (q : D.contr.Idx) : (D.rhsIdx i q 0).val = (i 3).val := by
  unfold DotDims.rhsIdx
  rw [dif_neg (show ¬(0 : Fin S512x1024.rank) ∈ D.rhsBatch by decide), dif_pos (show (0 : Fin S512x1024.rank) ∈ D.rhsNonContracting by decide)]
  rfl
theorem rhs_1 (i : S96x96x16x512.Idx) (q : D.contr.Idx) : (D.rhsIdx i q 1).val = (q ⟨0, by decide⟩).val :=
  D.rhsIdx_val_of_single rfl i q

/-- The contraction at `(p, q, b, c)`: the sum over the 1024 features of the left operand at `(p, q, b, ·)` times the
    weight at `(c, ·)`. -/
theorem dot_apply (L : (⟨4, ![96, 96, 16, 1024]⟩ : Shape).Idx → EReal) (W : (⟨2, ![512, 1024]⟩ : Shape).Idx → EReal)
    (p q : Fin 96) (b : Fin 16) (c : Fin 512) :
    Host.dotGeneral (F := Ideal) (φ₁ := .f32) (φ₂ := .f32) D none L W (ix4 p q b c) = ∑ k : Fin 1024, L (ix4 p q b k) * W (ix2 c k) := by
  simp only [Host.dotGeneral]
  rw [Ideal.dotGeneral_apply, ← Equiv.sum_comp (contrEquiv1 D 1024 rfl rfl).symm]
  refine Finset.sum_congr rfl fun k _ => ?_
  have hk := contrEquiv1_symm_val D 1024 rfl rfl k
  have el : D.lhsIdx (ix4 p q b c) ((contrEquiv1 D 1024 rfl rfl).symm k) = ix4 p q b k := funext fun a => Fin.ext (by
    match a with
    | ⟨0, _⟩ => exact lhs_0 _ _
    | ⟨1, _⟩ => exact lhs_1 _ _
    | ⟨2, _⟩ => exact lhs_2 _ _
    | ⟨3, _⟩ => exact (lhs_3 _ _).trans hk)
  have er : D.rhsIdx (ix4 p q b c) ((contrEquiv1 D 1024 rfl rfl).symm k) = ix2 c k := funext fun a => Fin.ext (by
    match a with
    | ⟨0, _⟩ => exact rhs_0 _ _
    | ⟨1, _⟩ => exact (rhs_1 _ _).trans hk)
  rw [el, er]

/-! ## The bias at an index -/

/-- The bias broadcast over the three leading axes reads its entry `c`. -/
theorem bias_apply (bias : (⟨1, ![512]⟩ : Shape).Idx → EReal) (p q : Fin 96) (b : Fin 16) (c : Fin 512) :
    broadcastInDim S96x96x16x512 ![0, 1, 2, 3] bcast_S1x1x1x512_S96x96x16x512_0_1_2_3
        (broadcastInDim S1x1x1x512 ![3] bcast_S512_S1x1x1x512_3 bias) (ix4 p q b c) = bias (ix1 c) := by
  refine (broadcastInDim_apply _ _ _ (ix4 p q b c) (ix4 (0 : Fin 1) (0 : Fin 1) (0 : Fin 1) c) (fun a => ?_)).trans ?_
  · match a with
    | ⟨0, _⟩ => rfl
    | ⟨1, _⟩ => rfl
    | ⟨2, _⟩ => rfl
    | ⟨3, _⟩ => rfl
  refine broadcastInDim_apply _ _ _ (ix4 (0 : Fin 1) (0 : Fin 1) (0 : Fin 1) c) (ix1 c) (fun a => ?_)
  match a with
  | ⟨0, _⟩ => rfl

end Cert.ReferenceIdeal.RefValue

end
-- ==== Proof.RefValue.lean ====
/-
  The reference program's result, index by index on the extended reals. At row `r = 96 p + q`, batch entry `b` and
  feature `c` the merged array reads the unmerged one at `(p, q, b, c)`; there the contraction is the sum over the
  1024 concatenated features of the rectified pair times the weight, and the bias is its entry `c`. The paired
  array reads row `p` of the input on its first 512 features and row `q` on its last 512, so the sum splits at 512
  into the two partial sums of the specification; the rectifier's weak comparison against the broadcast zero, with
  the slope on the left, is the specification's rectifier.
-/
import proofs.«101371_j80934363726437_2_alg».proof.Proof.RefIdx
import proofs.«101371_j80934363726437_2_alg».proof.Proof.RefDot

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.ValueIdx
open Cert.PairSpec (slope lrelu lrelu_weak headSum tailSum Gat G G_ix3 sum_split)

/-! ## The result -/

/-- The reference's result is the specification's array. -/
theorem out_eq_G (x : (⟨3, ![96, 16, 512]⟩ : Shape).Idx → EReal) (W : (⟨2, ![512, 1024]⟩ : Shape).Idx → EReal)
    (bias : (⟨1, ![512]⟩ : Shape).Idx → EReal) : out (F := Ideal) x W bias = G x W bias := by
  funext i
  obtain ⟨r, b, c, rfl⟩ : ∃ (r : Fin 9216) (b : Fin 16) (c : Fin 512), i = ix3 r b c := ⟨i 0, i 1, i 2, eq_ix3 i⟩
  have hp : r.val / 96 < 96 := by omega
  have hq : r.val % 96 < 96 := by omega
  rw [G_ix3]
  unfold out Gat headSum tailSum
  refine (shapeCast_apply _ _ (ix3 r b c) (ix4 (⟨r.val / 96, hp⟩ : Fin 96) (⟨r.val % 96, hq⟩ : Fin 96) b c) ?_).trans ?_
  · rw [Shape.rowMajor_val_four, Shape.rowMajor_val_three]
    show ((r.val / 96 * 96 + r.val % 96) * 16 + b.val) * 512 + c.val = (r.val * 16 + b.val) * 512 + c.val
    rw [Nat.div_add_mod' r.val 96]
  rw [addf_apply, dot_apply, bias_apply, sum_split]
  refine congrArg₂ (· + ·) (congrArg₂ (· + ·) (Finset.sum_congr rfl fun k _ => ?_) (Finset.sum_congr rfl fun k _ => ?_)) rfl
  · rw [rect_apply, pairs_left]
  · rw [rect_apply, pairs_right]

/-- The run: every weakly fair execution of the reference terminates with the result buffer at the specification's
    array of the arguments' launch contents and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v10) = Cert.PairSpec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h c).1.trans (out_eq_G _ _ _), (h c).2⟩) (run_out m ρ)

end Cert.ReferenceIdeal.RefValue

end
-- ==== Proof.lean ====
/-
  The certificate of a pairwise linear layer. For `x : [96, 16, 512]`, `W : [512, 1024]`, `bias : [512]` both programs
  compute, at row r = 96 p + q, batch entry b and feature c,

      ∑ k < 512, lrelu (x p b k) · W c k  +  ∑ k < 512, lrelu (x q b k) · W c (512 + k)  +  bias c

  on the extended reals (`PairSpec.G`). The kernel program does it in two regions: the first multiplies the
  rectified input, flattened to [1536, 512], by the two transposed halves of the weight; the second adds, block by
  block over a 6 × 6 grid, row block p of the first product, row block q of the second and the bias. The reference
  concatenates rows p and q of the input along the feature axis, rectifies, contracts the 1024 features with `W` in
  one product and adds the bias. The two agree because a sum over 1024 terms is the sum of its two halves, because
  the rectifier's two spellings (strict comparison and slope on the right; weak comparison and slope on the left)
  are one function, and because addition of extended reals is associative — no input need be finite.

  The three frames: the two kernel programs' are the generated frame proofs; the reference's is its run with the
  result dropped. The idealized kernel is the kernel's own text read on the extended reals (no rewrite), so
  `preserves` is trivial.
-/
import proofs.«101371_j80934363726437_2_alg».proof.Defs
import proofs.«101371_j80934363726437_2_alg».proof.Proof.Gen.Kernel
import proofs.«101371_j80934363726437_2_alg».proof.Proof.Gen.Kernel.Frame
import proofs.«101371_j80934363726437_2_alg».proof.Proof.Gen.KernelIdeal
import proofs.«101371_j80934363726437_2_alg».proof.Proof.Gen.KernelIdeal.Frame
import proofs.«101371_j80934363726437_2_alg».proof.Proof.Gen.ReferenceIdeal
import proofs.«101371_j80934363726437_2_alg».proof.Proof.Gen.Pre_finite_inputs
import proofs.«101371_j80934363726437_2_alg».proof.Proof.KValue
import proofs.«101371_j80934363726437_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end with the result array at `PairSpec.G` of argument arrays that agree. -/
theorem algebraic : Cert.algebraic_KernelIdeal_ReferenceIdeal := by
  intro m ρ m' ρ' _ hagree
  refine ⟨fun c => Cert.PairSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
